-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_arg15 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg11 : FVec F S32x32 .f32) (main_arg12 : FVec F S32 .f32) (main_arg13 : FVec F S32 .f32) (main_arg14 : FVec F S32 .f32) (main_arg15 : FVec F S32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_v63 main_v67

def fn_part2 {F : FTy → Type} [FloatOps F] (main_arg7 : FVec F S8192x8192 .f32) (main_arg8 : FVec F S32x32 .f32) (main_arg9 : FVec F S32x32 .f32) (main_arg10 : FVec F S32x32 .f32) (main_arg11 : FVec F S32x32 .f32) (main_arg12 : FVec F S32 .f32) (main_arg13 : FVec F S32 .f32) (main_arg14 : FVec F S32 .f32) (main_arg15 : FVec F S32 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_arg13 main_arg14 main_arg15 main_v48 main_v49 main_v50

def fn_part1 {F : FTy → Type} [FloatOps F] (main_arg4 : FVec F S8192x8192 .f32) (main_arg5 : FVec F S8192x8192 .f32) (main_arg6 : FVec F S8192x8192 .f32) (main_arg7 : FVec F S8192x8192 .f32) (main_arg8 : FVec F S32x32 .f32) (main_arg9 : FVec F S32x32 .f32) (main_arg10 : FVec F S32x32 .f32) (main_arg11 : FVec F S32x32 .f32) (main_arg12 : FVec F S32 .f32) (main_arg13 : FVec F S32 .f32) (main_arg14 : FVec F S32 .f32) (main_arg15 : FVec F S32 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x32 .f32) (main_arg1 : FVec F S8192x32 .f32) (main_arg2 : FVec F S8192x32 .f32) (main_arg3 : FVec F S8192x32 .f32) (main_arg4 : FVec F S8192x8192 .f32) (main_arg5 : FVec F S8192x8192 .f32) (main_arg6 : FVec F S8192x8192 .f32) (main_arg7 : FVec F S8192x8192 .f32) (main_arg8 : FVec F S32x32 .f32) (main_arg9 : FVec F S32x32 .f32) (main_arg10 : FVec F S32x32 .f32) (main_arg11 : FVec F S32x32 .f32) (main_arg12 : FVec F S32 .f32) (main_arg13 : FVec F S32 .f32) (main_arg14 : FVec F S32 .f32) (main_arg15 : FVec F S32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S1x32 : Shape := ⟨2, ![1, 32]⟩
abbrev S1024x512 : Shape := ⟨2, ![1024, 512]⟩
abbrev S1024x32 : Shape := ⟨2, ![1024, 32]⟩
abbrev S512x32 : Shape := ⟨2, ![512, 32]⟩

abbrev nBuf : Space → Nat
  | .hbm => 37
  | .vmem => 14
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .bf16⟩
  | .hbm, ⟨21, _⟩ => ⟨S8192x32, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .bf16⟩
  | .hbm, ⟨26, _⟩ => ⟨S8192x32, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .bf16⟩
  | .hbm, ⟨31, _⟩ => ⟨S8192x32, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .bf16⟩
  | .hbm, ⟨36, _⟩ => ⟨S8192x32, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8192x32, .bf16⟩
  | .local _ .vmem, ⟨9, _⟩ => ⟨S8192x32, .bf16⟩
  | .local _ .vmem, ⟨10, _⟩ => ⟨S8192x32, .bf16⟩
  | .local _ .vmem, ⟨11, _⟩ => ⟨S8192x32, .bf16⟩
  | .local _ .vmem, ⟨12, _⟩ => ⟨S1024x32, .f32⟩
  | .local _ .vmem, ⟨13, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v7 : Index := Scalar.indexCast v1
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8192x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8192x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8192x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  inb_S1024x512_S1024x512_0_0 : ∀ a, (![0, 0] : Fin 2 → Nat) a + S1024x512.size a ≤ S1024x512.size a
  h_S1024x512 : 0 < S1024x512.numel
  h_S512x32 : 0 < S512x32.numel
  shapeCasts_S512x32_S512x32 : S512x32.ShapeCasts S512x32
  shapeCasts_S1024x32_S1024x32 : S1024x32.ShapeCasts S1024x32
  dot_S8192x32_S32x32_S8192x32_1_0_0_1_n_n_wf : DotDims.WF S8192x32 S32x32 S8192x32 [1] [0] [0] [1] [] []
  dot_S1024x512_S512x32_S1024x32_1_0_0_1_n_n_wf : DotDims.WF S1024x512 S512x32 S1024x32 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x32.size a ≤ S8192x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x8192.size a
  hwx0_1 : ∀ i : grid0.Coords, EltTy.bits .f32 = 32 ∨ (Rect.block (s := S8192x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x8192.size a
  hwx0_3 : ∀ i : grid0.Coords, EltTy.bits .f32 = 32 ∨ (Rect.block (s := S8192x8192) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x32.size a ≤ S8192x32.size a
  hwx0_4 : ∀ i : grid0.Coords, EltTy.bits .bf16 = 32 ∨ (Rect.block (s := S8192x32) S8192x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x32.size a ≤ S8192x32.size a
  hwx0_5 : ∀ i : grid0.Coords, EltTy.bits .bf16 = 32 ∨ (Rect.block (s := S8192x32) S8192x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192x32.size a ≤ S8192x32.size a
  hwx0_6 : ∀ i : grid0.Coords, EltTy.bits .bf16 = 32 ∨ (Rect.block (s := S8192x32) S8192x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x32.size a ≤ S8192x32.size a
  hwx0_7 : ∀ i : grid0.Coords, EltTy.bits .bf16 = 32 ∨ (Rect.block (s := S8192x32) S8192x32.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x32.size a ≤ S8192x32.size a
  hwx0_8 : ∀ i : grid0.Coords, EltTy.bits .f32 = 32 ∨ (Rect.block (s := S8192x32) S1024x32.size (cc0_transform_8 i) (hinb0_8 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_arg4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8192x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8192x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S8192x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S8192x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S1x32 : Shape := ⟨2, ![1, 32]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S_, .f32⟩
  | .hbm, ⟨40, _⟩ => ⟨S8192x32, .f32⟩
  | .hbm, ⟨41, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.AccBody.lean ====
/-
  One grid step of the merge kernel, as a function of the blocks it loads.

  At grid point (j, k) the body holds four 1024×512 tiles of the operators (one per branch), the four resident
  feature arrays (8192×32 each), and the 1024×32 output block. It takes rows [512k, 512k + 512) of each feature
  array and updates the block four times in place: acc ← acc + tileₐ · rowsₐ for a = 0, 1, 2, 3, each update a
  whole-block store read back whole by the next. At k = 0 the block is first filled with zeros; at k = 15 it is
  finally replaced by its positive part. So the three control cases leave, in the output block,

    k = 0        : step(0)
    0 < k < 15   : step(previous contents)
    k = 15       : relu(step(previous contents))

  where step is the four-fold update below. Nothing here depends on the float model.
-/
import proofs.«114556_j19696720019799_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- Rows [512k, 512k + 512) of a resident feature array, k the second grid coordinate. -/
def rows (i : grid0.Coords) (x : Vec F S8192x32 .bf16) : Vec F S512x32 .bf16 :=
  View.ld x (Rect.unit (k0_off1 i) S512x32.size (k0_off1_inb i))

/-- The four in-place updates of the output block: acc + G₀·h₀, then + G₁·h₁, + G₂·h₂, + G₃·h₃, in this order. -/
def step (i : grid0.Coords) (x0 x1 x2 x3 : Vec F S1024x512 .f32) (x4 x5 x6 x7 : Vec F S8192x32 .bf16)
    (acc : Vec F S1024x32 .f32) : Vec F S1024x32 .f32 :=
  k0_pay2 x3 (rows i x7) (k0_pay1 (k0_pay7 x2) (k0_pay8 (rows i x6)) (k0_pay6 x1 (rows i x5) (k0_pay5 x0 (rows i x4) acc)))

variable (c : Dev nD) (i : grid0.Coords)
  (a2 : Memref sig .tc .vmem S1024x512 .f32) (h2 : a2.IsWhole) (a3 : Memref sig .tc .vmem S1024x512 .f32) (h3 : a3.IsWhole)
  (a4 : Memref sig .tc .vmem S1024x512 .f32) (h4 : a4.IsWhole) (a5 : Memref sig .tc .vmem S1024x512 .f32) (h5 : a5.IsWhole)
  (a6 : Memref sig .tc .vmem S8192x32 .bf16) (h6 : a6.IsWhole) (a7 : Memref sig .tc .vmem S8192x32 .bf16) (h7 : a7.IsWhole)
  (a8 : Memref sig .tc .vmem S8192x32 .bf16) (h8 : a8.IsWhole) (a9 : Memref sig .tc .vmem S8192x32 .bf16) (h9 : a9.IsWhole)
  (a10 : Memref sig .tc .vmem S1024x32 .f32) (h10 : a10.IsWhole)
  (x0 x1 x2 x3 : Vec F S1024x512 .f32) (x4 x5 x6 x7 : Vec F S8192x32 .bf16) (xo : Vec F S1024x32 .f32)

/-- First reduction step (k = 0): the block is zeroed, then updated four times. Each load of the block reads the
    payload of the store just before it. -/
theorem out_A (hc0 : cond0_0 i) (hc1 : ¬cond0_1 i) :
    out0_A_8 c i a2 h2 a3 h3 a4 h4 a5 h5 a6 h6 a7 h7 a8 h8 a9 h9 a10 h10 hc0 hc1 x0 x1 x2 x3 x4 x5 x6 x7
      = step i x0 x1 x2 x3 x4 x5 x6 x7 k0_pay4 := by
  unfold out0_A_8
  rw [View.read_writes_eq_canon _ _ _ (cover0_A_8 c i a2 h2 a3 h3 a4 h4 a5 h5 a6 h6 a7 h7 a8 h8 a9 h9 a10 h10 hc0 hc1 x0 x1 x2 x3 x4 x5 x6 x7)]
  unfold kernelRun0_A
  dsimp only
  rw [View.canon_cons_unit_zero (S := S1024x32) hz]
  unfold kernelRun0_A.sl.v40 kernelRun0_A.sl.H8_4
  rw [View.readCov_cons_toLoadRect]
  unfold kernelRun0_A.sl.v30 kernelRun0_A.sl.H8_3
  rw [View.readCov_cons_toLoadRect]
  unfold kernelRun0_A.sl.v20 kernelRun0_A.sl.H8_2
  rw [View.readCov_cons_toLoadRect]
  unfold kernelRun0_A.sl.v10 kernelRun0_A.sl.H8_1
  rw [View.readCov_cons_toLoadRect]
  unfold kernelRun0_A.sl.r kernelRun0_A.sl.r_1
  simp only [View.readAt_eq_ld, h2.read_unread, h3.read_unread, h4.read_unread, h5.read_unread, h6.read_unread,
    h7.read_unread, h8.read_unread, h9.read_unread, View.ld_unit_zero (S := S1024x512) hz]
  rfl

/-- A middle step (0 < k < 15): four updates of what the previous point left. -/
theorem out_B (hc0 : ¬cond0_0 i) (hc1 : ¬cond0_1 i) :
    out0_B_8 c i a2 h2 a3 h3 a4 h4 a5 h5 a6 h6 a7 h7 a8 h8 a9 h9 a10 h10 hc0 hc1 x0 x1 x2 x3 x4 x5 x6 x7 xo
      = step i x0 x1 x2 x3 x4 x5 x6 x7 xo := by
  unfold out0_B_8
  rw [View.read_writes_eq_canon _ _ _ (cover0_B_8 c i a2 h2 a3 h3 a4 h4 a5 h5 a6 h6 a7 h7 a8 h8 a9 h9 a10 h10 hc0 hc1 x0 x1 x2 x3 x4 x5 x6 x7 xo)]
  unfold kernelRun0_B
  dsimp only
  rw [View.canon_cons_unit_zero (S := S1024x32) hz]
  unfold kernelRun0_B.sl.v40 kernelRun0_B.sl.H8_3
  rw [View.readCov_cons_toLoadRect]
  unfold kernelRun0_B.sl.v30 kernelRun0_B.sl.H8_2
  rw [View.readCov_cons_toLoadRect]
  unfold kernelRun0_B.sl.v20 kernelRun0_B.sl.H8_1
  rw [View.readCov_cons_toLoadRect]
  unfold kernelRun0_B.sl.r kernelRun0_B.sl.r_1
  simp only [View.readAt_eq_ld, h2.read_unread, h3.read_unread, h4.read_unread, h5.read_unread, h6.read_unread,
    h7.read_unread, h8.read_unread, h9.read_unread, h10.read_unread, View.ld_unit_zero (S := S1024x32) hz,
    View.ld_unit_zero (S := S1024x512) hz]
  rfl

/-- The last step (k = 15): four updates of what the previous point left, then the positive part. -/
theorem out_C (hc0 : ¬cond0_0 i) (hc1 : cond0_1 i) :
    out0_C_8 c i a2 h2 a3 h3 a4 h4 a5 h5 a6 h6 a7 h7 a8 h8 a9 h9 a10 h10 hc0 hc1 x0 x1 x2 x3 x4 x5 x6 x7 xo
      = k0_pay3 (step i x0 x1 x2 x3 x4 x5 x6 x7 xo) := by
  unfold out0_C_8
  rw [View.read_writes_eq_canon _ _ _ (cover0_C_8 c i a2 h2 a3 h3 a4 h4 a5 h5 a6 h6 a7 h7 a8 h8 a9 h9 a10 h10 hc0 hc1 x0 x1 x2 x3 x4 x5 x6 x7 xo)]
  unfold kernelRun0_C
  dsimp only
  rw [View.canon_cons_unit_zero (S := S1024x32) hz]
  unfold kernelRun0_C.sl.v48 kernelRun0_C.sl.H8_4
  rw [View.readCov_cons_toLoadRect]
  unfold kernelRun0_C.sl.v40 kernelRun0_C.sl.H8_3
  rw [View.readCov_cons_toLoadRect]
  unfold kernelRun0_C.sl.v30 kernelRun0_C.sl.H8_2
  rw [View.readCov_cons_toLoadRect]
  unfold kernelRun0_C.sl.v20 kernelRun0_C.sl.H8_1
  rw [View.readCov_cons_toLoadRect]
  unfold kernelRun0_C.sl.r kernelRun0_C.sl.r_1
  simp only [View.readAt_eq_ld, h2.read_unread, h3.read_unread, h4.read_unread, h5.read_unread, h6.read_unread,
    h7.read_unread, h8.read_unread, h9.read_unread, h10.read_unread, View.ld_unit_zero (S := S1024x32) hz,
    View.ld_unit_zero (S := S1024x512) hz]
  rfl

end Cert.KernelIdeal.Acc

end
-- ==== Proof.AccIdeal.lean ====
/-
  One grid step of the merge kernel on the extended reals, entry by entry.

  On exact values the bf16 roundings are the identity and a matrix-unit product into a zero accumulator is the plain
  sum of products, so one in-place update of the output block is, at entry (p, q),

      acc(p, q) + ∑ₗ tile(p, l) · rows(l, q),        l < 512,

  and the four updates of a step nest in the order the body makes them. The block's final positive part is the
  maximum with the printed zero, and the zero fill of the first step is that same word at every entry.
-/
import proofs.«114556_j19696720019799_2_alg».proof.Proof.AccBody
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

/-- The body's matrix-unit product, into the zero accumulator it is always given, at entry (p, q): the sum over the
    512 contracted positions of tile(p, l) · rows(l, q). -/
theorem mm_apply (a : FVec Ideal S1024x512 .bf16) (b : FVec Ideal S512x32 .bf16) (p : Fin 1024) (q : Fin 32) :
    matmul (F := Ideal) dot_S1024x512_S512x32_S1024x32_1_0_0_1_n_n none a b (constant S1024x32 .f32 0x00000000#32) (ix2 p q)
      = ∑ l : Fin 512, a (ix2 p l) * b (ix2 l q) := by
  simp only [matmul]
  rw [Ideal.matmul_constant_zero_apply,
    ← Equiv.sum_comp (contrEquiv1 dot_S1024x512_S512x32_S1024x32_1_0_0_1_n_n 512 rfl rfl).symm]
  refine Finset.sum_congr rfl fun k _ => ?_
  have hk := contrEquiv1_symm_val dot_S1024x512_S512x32_S1024x32_1_0_0_1_n_n 512 rfl rfl k
  have el : dot_S1024x512_S512x32_S1024x32_1_0_0_1_n_n.lhsIdx (ix2 p q)
      ((contrEquiv1 dot_S1024x512_S512x32_S1024x32_1_0_0_1_n_n 512 rfl rfl).symm k) = ix2 p k := funext fun x => Fin.ext (by
    match x with
    | ⟨0, _⟩ =>
      show (dot_S1024x512_S512x32_S1024x32_1_0_0_1_n_n.lhsIdx (ix2 p q) _ 0).val = p.val
      unfold DotDims.lhsIdx
      rw [dif_neg (show ¬(0 : Fin S1024x512.rank) ∈ dot_S1024x512_S512x32_S1024x32_1_0_0_1_n_n.lhsBatch by decide),
        dif_pos (show (0 : Fin S1024x512.rank) ∈ dot_S1024x512_S512x32_S1024x32_1_0_0_1_n_n.lhsNonContracting by decide)]
      rfl
    | ⟨1, _⟩ => exact (dot_S1024x512_S512x32_S1024x32_1_0_0_1_n_n.lhsIdx_val_of_single rfl _ _).trans hk)
  have er : dot_S1024x512_S512x32_S1024x32_1_0_0_1_n_n.rhsIdx (ix2 p q)
      ((contrEquiv1 dot_S1024x512_S512x32_S1024x32_1_0_0_1_n_n 512 rfl rfl).symm k) = ix2 k q := funext fun x => Fin.ext (by
    match x with
    | ⟨0, _⟩ => exact (dot_S1024x512_S512x32_S1024x32_1_0_0_1_n_n.rhsIdx_val_of_single rfl _ _).trans hk
    | ⟨1, _⟩ =>
      show (dot_S1024x512_S512x32_S1024x32_1_0_0_1_n_n.rhsIdx (ix2 p q) _ 1).val = q.val
      unfold DotDims.rhsIdx
      rw [dif_neg (show ¬(1 : Fin S512x32.rank) ∈ dot_S1024x512_S512x32_S1024x32_1_0_0_1_n_n.rhsBatch by decide),
        dif_pos (show (1 : Fin S512x32.rank) ∈ dot_S1024x512_S512x32_S1024x32_1_0_0_1_n_n.rhsNonContracting by decide)]
      rfl)
  rw [el, er]

/-- One update of the block at entry (p, q): the old entry plus the tile's row p against column q of the rows.
    (The three updates that load their tile inside the payload.) -/
theorem pay5_apply (x : Vec Ideal S1024x512 .f32) (hb : Vec Ideal S512x32 .bf16) (acc : Vec Ideal S1024x32 .f32)
    (p : Fin 1024) (q : Fin 32) :
    k0_pay5 (F := Ideal) x hb acc (ix2 p q) = acc (ix2 p q) + ∑ l : Fin 512, x (ix2 p l) * hb (ix2 l q) := by
  unfold k0_pay5
  simp only [shapeCast_self]
  rw [addf_apply, mm_apply]
  rfl

theorem pay6_apply (x : Vec Ideal S1024x512 .f32) (hb : Vec Ideal S512x32 .bf16) (acc : Vec Ideal S1024x32 .f32)
    (p : Fin 1024) (q : Fin 32) :
    k0_pay6 (F := Ideal) x hb acc (ix2 p q) = acc (ix2 p q) + ∑ l : Fin 512, x (ix2 p l) * hb (ix2 l q) := by
  unfold k0_pay6
  simp only [shapeCast_self]
  rw [addf_apply, mm_apply]
  rfl

theorem pay2_apply (x : Vec Ideal S1024x512 .f32) (hb : Vec Ideal S512x32 .bf16) (acc : Vec Ideal S1024x32 .f32)
    (p : Fin 1024) (q : Fin 32) :
    k0_pay2 (F := Ideal) x hb acc (ix2 p q) = acc (ix2 p q) + ∑ l : Fin 512, x (ix2 p l) * hb (ix2 l q) := by
  unfold k0_pay2
  simp only [shapeCast_self]
  rw [addf_apply, mm_apply]
  rfl

/-- The third update, whose tile and rows are prepared by two earlier payloads (the rounding of the tile and a
    cast of the rows to their own shape: both the identity here). -/
theorem pay1_apply (x : Vec Ideal S1024x512 .f32) (hb : Vec Ideal S512x32 .bf16) (acc : Vec Ideal S1024x32 .f32)
    (p : Fin 1024) (q : Fin 32) :
    k0_pay1 (F := Ideal) (k0_pay7 x) (k0_pay8 hb) acc (ix2 p q) = acc (ix2 p q) + ∑ l : Fin 512, x (ix2 p l) * hb (ix2 l q) := by
  unfold k0_pay1 k0_pay7 k0_pay8
  simp only [shapeCast_self]
  rw [addf_apply, mm_apply]
  rfl

/-- A whole step at entry (p, q): the four updates, nested in the body's order. -/
theorem step_apply (i : grid0.Coords) (x0 x1 x2 x3 : Vec Ideal S1024x512 .f32) (x4 x5 x6 x7 : Vec Ideal S8192x32 .bf16)
    (acc : Vec Ideal S1024x32 .f32) (p : Fin 1024) (q : Fin 32) :
    step (F := Ideal) i x0 x1 x2 x3 x4 x5 x6 x7 acc (ix2 p q)
      = (((acc (ix2 p q) + ∑ l : Fin 512, x0 (ix2 p l) * rows i x4 (ix2 l q))
          + ∑ l : Fin 512, x1 (ix2 p l) * rows i x5 (ix2 l q))
          + ∑ l : Fin 512, x2 (ix2 p l) * rows i x6 (ix2 l q))
          + ∑ l : Fin 512, x3 (ix2 p l) * rows i x7 (ix2 l q) := by
  unfold step
  rw [pay2_apply, pay1_apply, pay6_apply, pay5_apply]

/-- The zero fill at any entry is the printed zero. -/
theorem pay4_apply (j : S1024x32.Idx) : k0_pay4 (F := Ideal) j = Ideal.ofBits .f32 0x00000000#32 := rfl

/-- The positive part at any entry: the maximum with the printed zero. -/
theorem pay3_apply (x : Vec Ideal S1024x32 .f32) (j : S1024x32.Idx) :
    k0_pay3 (F := Ideal) x j = max (x j) (Ideal.ofBits .f32 0x00000000#32) := by
  unfold k0_pay3
  simp only [shapeCast_self]
  rfl

end Cert.KernelIdeal.Acc

end
-- ==== Proof.MergeSpec.lean ====
/-
  The merged feature map, and the arithmetic that joins a tiled accumulation to it.

  For operators G₀ … G₃ (8192 × 8192) and feature arrays h₀ … h₃ (8192 × 32), entry (r, q) of the result is

      max (((G₀h₀ + G₁h₁) + G₂h₂) + G₃h₃) z          (Gₐhₐ)(r, q) = ∑ₖ Gₐ(r, k) · hₐ(k, q),  k < 8192,

  with z the zero the positive part compares against. A kernel that walks the contraction axis in 16 blocks of
  512 and, per block s, adds the four partial products one after the other into a running block
  (acc ← (((acc + t₀ s) + t₁ s) + t₂ s) + t₃ s, starting from 0) ends with the same number: sums of extended reals
  may be regrouped and reordered freely (addition is associative and commutative there, infinities included; no
  product is distributed), a sum over 8192 indices is the sum over 16 runs of 512, and a sum of four-term sums is
  the four-term sum of the sums. Arrays are read at natural-number coordinates (zero outside their extent) so that
  "row 1024 j + p" and "column 512 s + l" are plain arithmetic.
-/
import Idealize.ShloMosaic.PureOps.Ideal
import Idealize.ShloMosaic.Lib.ValueIdx

noncomputable section

open scoped BigOperators
open Finset
open Idealize.ShloMosaic Idealize.ShloMosaic.ValueIdx

namespace Cert.Merge

/-- A rank-2 array of extended reals read at natural-number coordinates; zero outside its extent. -/
def at2 {a b : ℕ} (X : (⟨2, ![a, b]⟩ : Shape).Idx → EReal) (r c : ℕ) : EReal :=
  if h : r < a ∧ c < b then X (ix2 ⟨r, h.1⟩ ⟨c, h.2⟩) else 0

/-- Inside the extent it is the array's entry. -/
theorem at2_ix2 {a b : ℕ} (X : (⟨2, ![a, b]⟩ : Shape).Idx → EReal) (r : Fin a) (c : Fin b) :
    at2 X r.val c.val = X (ix2 r c) := by
  unfold at2; rw [dif_pos ⟨r.isLt, c.isLt⟩]

/-- A sum over the first K·n naturals is the sum over K consecutive runs of n. -/
theorem sum_range_blocks {M : Type*} [AddCommMonoid M] (f : ℕ → M) (n : ℕ) :
    ∀ K : ℕ, ∑ k ∈ range (K * n), f k = ∑ s ∈ range K, ∑ l ∈ range n, f (n * s + l)
  | 0 => by simp
  | K + 1 => by
    rw [Nat.succ_mul, sum_range_add, sum_range_blocks f n K, sum_range_succ, Nat.mul_comm n K]

variable (G h : ℕ → ℕ → EReal)

/-- Entry (r, q) of the product G h over the whole contraction axis. -/
def gemm (r q : ℕ) : EReal := ∑ k ∈ range 8192, G r k * h k q

/-- The part of that entry from contraction block s (columns 512 s … 512 s + 511 of G, the same rows of h). -/
def tile (r q s : ℕ) : EReal := ∑ l ∈ range 512, G r (512 * s + l) * h (512 * s + l) q

/-- The entry is the sum of its 16 block parts. -/
theorem gemm_eq_tiles (r q : ℕ) : gemm G h r q = ∑ s ∈ range 16, tile G h r q s :=
  sum_range_blocks (fun k => G r k * h k q) 512 16

variable (G0 G1 G2 G3 h0 h1 h2 h3 : ℕ → ℕ → EReal)

/-- What one contraction block adds to entry (r, q): the four branches' parts. -/
def addend (r q s : ℕ) : EReal :=
  ((tile G0 h0 r q s + tile G1 h1 r q s) + tile G2 h2 r q s) + tile G3 h3 r q s

/-- The running value of entry (r, q) after blocks 0 … k. -/
def partialSum (r q k : ℕ) : EReal := ∑ s ∈ range (k + 1), addend G0 G1 G2 G3 h0 h1 h2 h3 r q s

/-- Four updates in a row add the block's addend. -/
theorem update_eq (acc t0 t1 t2 t3 : EReal) : (((acc + t0) + t1) + t2) + t3 = acc + (((t0 + t1) + t2) + t3) := by
  simp only [add_assoc]

theorem partialSum_zero (r q : ℕ) :
    partialSum G0 G1 G2 G3 h0 h1 h2 h3 r q 0 = addend G0 G1 G2 G3 h0 h1 h2 h3 r q 0 := sum_range_one _

theorem partialSum_succ (r q k : ℕ) :
    partialSum G0 G1 G2 G3 h0 h1 h2 h3 r q (k + 1)
      = partialSum G0 G1 G2 G3 h0 h1 h2 h3 r q k + addend G0 G1 G2 G3 h0 h1 h2 h3 r q (k + 1) := sum_range_succ _ _

/-- After the last block the running value is the sum of the four whole products. -/
theorem partialSum_last (r q : ℕ) :
    partialSum G0 G1 G2 G3 h0 h1 h2 h3 r q 15
      = ((gemm G0 h0 r q + gemm G1 h1 r q) + gemm G2 h2 r q) + gemm G3 h3 r q := by
  unfold partialSum addend
  rw [show (15 + 1 : ℕ) = 16 from rfl]
  simp only [sum_add_distrib, gemm_eq_tiles]

end Cert.Merge

namespace Cert.Merge

/-- The merged feature map of four operators and four feature arrays, entry by entry, with the positive part taken
    against z. -/
def merged (G0 G1 G2 G3 : (⟨2, ![8192, 8192]⟩ : Shape).Idx → EReal) (h0 h1 h2 h3 : (⟨2, ![8192, 32]⟩ : Shape).Idx → EReal)
    (z : EReal) : (⟨2, ![8192, 32]⟩ : Shape).Idx → EReal := fun i =>
  max (((gemm (at2 G0) (at2 h0) (i 0).val (i 1).val + gemm (at2 G1) (at2 h1) (i 0).val (i 1).val)
    + gemm (at2 G2) (at2 h2) (i 0).val (i 1).val) + gemm (at2 G3) (at2 h3) (i 0).val (i 1).val) z

end Cert.Merge

end
-- ==== Proof.AccBlocks.lean ====
/-
  What the windows hold at a grid point, as entries of the arrays the region starts from.

  Grid point t of the 8 × 16 grid is (j, k) = (t / 16, t % 16). The four operator windows hold rows
  [1024 j, 1024 j + 1024) and columns [512 k, 512 k + 512) of their operators; the four feature windows hold their
  whole arrays at every point; the body's slice of a feature array is its rows [512 k, 512 k + 512); the output window
  is rows [1024 j, 1024 j + 1024) of the result, written back after k = 15.
-/
import proofs.«114556_j19696720019799_2_alg».proof.Proof.AccBody
import proofs.«114556_j19696720019799_2_alg».proof.Proof.MergeSpec
import Idealize.ShloMosaic.Lib.ValueIdx
import Idealize.ShloMosaic.Lib.Pipeline.Value

noncomputable section

open Idealize.ShloMosaic Idealize.ShloMosaic.TcCoe Idealize.SL.Sem Idealize.ShloMosaic.ValueIdx
open Cert.Merge (at2)

namespace Cert.KernelIdeal.Acc

open Cert.KernelIdeal Cert.KernelIdeal.Gen

/-- The printed index maps and grid coordinates over the 128 points: the operator windows and the output window
    follow (j, k) = (t / 16, t % 16); the feature windows stay at block (0, 0). -/
theorem idx_facts : ∀ t : Fin cfg0.N,
    ((grid0.coords t) 1).val = t.val % 16
    ∧ (win0_0.index t (0 : Fin 2) = t.val / 16 ∧ win0_0.index t (1 : Fin 2) = t.val % 16)
    ∧ (win0_1.index t (0 : Fin 2) = t.val / 16 ∧ win0_1.index t (1 : Fin 2) = t.val % 16)
    ∧ (win0_2.index t (0 : Fin 2) = t.val / 16 ∧ win0_2.index t (1 : Fin 2) = t.val % 16)
    ∧ (win0_3.index t (0 : Fin 2) = t.val / 16 ∧ win0_3.index t (1 : Fin 2) = t.val % 16)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val / 16 ∧ win0_8.index t (1 : Fin 2) = 0) :=
  (by decide +kernel : ∀ t : Fin grid0.N, _)

variable (m : (ℓ : Loc nD τ sig) → Buf (Elt Ideal) ℓ)

/-- The body's 512 rows of a feature array, at entry (l, q): row 512 k + l of the array. -/
theorem rows_apply (i : grid0.Coords) (x : Vec Ideal S8192x32 .bf16) (l : Fin 512) (q : Fin 32) :
    rows (F := Ideal) i x (ix2 l q) = at2 (a := 8192) (b := 32) x (512 * (i 1).val + l.val) q.val := by
  have hi : (i 1).val < 16 := (i 1).isLt
  have hl := l.isLt
  unfold rows at2
  rw [dif_pos ⟨by omega, q.isLt⟩]
  show x _ = x _
  refine congrArg x ?_
  funext a
  apply Fin.ext
  match a with
  | ⟨0, _⟩ =>
    show (k0_off1 i) 0 + 1 * l.val = 512 * (i 1).val + l.val
    rw [k0_off1_eq]; show 512 * (i 1).val + 1 * l.val = _; omega
  | ⟨1, _⟩ =>
    show (k0_off1 i) 1 + 1 * q.val = q.val
    rw [k0_off1_eq]; show 0 + 1 * q.val = _; omega

/-- Operator window 0 at point t, entry (p, l): entry (1024 j + p, 512 k + l) of the first operator. -/
theorem gblk0 (c : Dev nD) (t : Fin cfg0.N) (p : Fin 1024) (l : Fin 512) :
    (iblk m c 0 t : Vec Ideal S1024x512 .f32) (ix2 p l)
      = at2 (a := 8192) (b := 8192) (V m c main_arg4) (1024 * (t.val / 16) + p.val) (512 * (t.val % 16) + l.val) := by
  have hN : t.val < 128 := lt_of_lt_of_eq t.isLt N_0
  have hp := p.isLt
  have hl := l.isLt
  obtain ⟨-, ⟨e0, e1⟩, -⟩ := idx_facts t
  unfold at2
  rw [dif_pos ⟨by omega, by omega⟩]
  show V m c main_arg4 (((cfg0.win 0).blk t).view.emb (ix2 p l)) = V m c main_arg4 _
  refine congrArg (V m c main_arg4) ?_
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 512 + 1 * l.val = 512 * (t.val % 16) + l.val; rw [e1]; omega

theorem gblk1 (c : Dev nD) (t : Fin cfg0.N) (p : Fin 1024) (l : Fin 512) :
    (iblk m c 1 t : Vec Ideal S1024x512 .f32) (ix2 p l)
      = at2 (a := 8192) (b := 8192) (V m c main_arg5) (1024 * (t.val / 16) + p.val) (512 * (t.val % 16) + l.val) := by
  have hN : t.val < 128 := lt_of_lt_of_eq t.isLt N_0
  have hp := p.isLt
  have hl := l.isLt
  obtain ⟨-, -, ⟨e0, e1⟩, -⟩ := idx_facts t
  unfold at2
  rw [dif_pos ⟨by omega, by omega⟩]
  show V m c main_arg5 (((cfg0.win 1).blk t).view.emb (ix2 p l)) = V m c main_arg5 _
  refine congrArg (V m c main_arg5) ?_
  funext a
  apply Fin.ext
  match a with
  | ⟨0, _⟩ => show win0_1.index t (0 : Fin 2) * 1024 + 1 * p.val = 1024 * (t.val / 16) + p.val; rw [e0]; omega
  | ⟨1, _⟩ => show win0_1.index t (1 : Fin 2) * 512 + 1 * l.val = 512 * (t.val % 16) + l.val; rw [e1]; omega

theorem gblk2 (c : Dev nD) (t : Fin cfg0.N) (p : Fin 1024) (l : Fin 512) :
    (iblk m c 2 t : Vec Ideal S1024x512 .f32) (ix2 p l)
      = at2 (a := 8192) (b := 8192) (V m c main_arg6) (1024 * (t.val / 16) + p.val) (512 * (t.val % 16) + l.val) := by
  have hN : t.val < 128 := lt_of_lt_of_eq t.isLt N_0
  have hp := p.isLt
  have hl := l.isLt
  obtain ⟨-, -, -, ⟨e0, e1⟩, -⟩ := idx_facts t
  unfold at2
  rw [dif_pos ⟨by omega, by omega⟩]
  show V m c main_arg6 (((cfg0.win 2).blk t).view.emb (ix2 p l)) = V m c main_arg6 _
  refine congrArg (V m c main_arg6) ?_
  funext a
  apply Fin.ext
  match a with
  | ⟨0, _⟩ => show win0_2.index t (0 : Fin 2) * 1024 + 1 * p.val = 1024 * (t.val / 16) + p.val; rw [e0]; omega
  | ⟨1, _⟩ => show win0_2.index t (1 : Fin 2) * 512 + 1 * l.val = 512 * (t.val % 16) + l.val; rw [e1]; omega

theorem gblk3 (c : Dev nD) (t : Fin cfg0.N) (p : Fin 1024) (l : Fin 512) :
    (iblk m c 3 t : Vec Ideal S1024x512 .f32) (ix2 p l)
      = at2 (a := 8192) (b := 8192) (V m c main_arg7) (1024 * (t.val / 16) + p.val) (512 * (t.val % 16) + l.val) := by
  have hN : t.val < 128 := lt_of_lt_of_eq t.isLt N_0
  have hp := p.isLt
  have hl := l.isLt
  obtain ⟨-, -, -, -, ⟨e0, e1⟩, -⟩ := idx_facts t
  unfold at2
  rw [dif_pos ⟨by omega, by omega⟩]
  show V m c main_arg7 (((cfg0.win 3).blk t).view.emb (ix2 p l)) = V m c main_arg7 _
  refine congrArg (V m c main_arg7) ?_
  funext a
  apply Fin.ext
  match a with
  | ⟨0, _⟩ => show win0_3.index t (0 : Fin 2) * 1024 + 1 * p.val = 1024 * (t.val / 16) + p.val; rw [e0]; omega
  | ⟨1, _⟩ => show win0_3.index t (1 : Fin 2) * 512 + 1 * l.val = 512 * (t.val % 16) + l.val; rw [e1]; omega

/-- Feature window 4 holds its whole array at every point. -/
theorem hblk4 (c : Dev nD) (t : Fin cfg0.N) : (iblk m c 4 t : Vec Ideal S8192x32 .bf16) = V m c main_v4 := by
  obtain ⟨-, -, -, -, -, ⟨e0, e1⟩, -⟩ := idx_facts t
  funext y
  show V m c main_v4 (((cfg0.win 4).blk t).view.emb y) = V m c main_v4 y
  refine congrArg (V m c main_v4) ?_
  funext a
  apply Fin.ext
  match a with
  | ⟨0, _⟩ => show win0_4.index t (0 : Fin 2) * 8192 + 1 * (y 0).val = (y 0).val; rw [e0]; omega
  | ⟨1, _⟩ => show win0_4.index t (1 : Fin 2) * 32 + 1 * (y 1).val = (y 1).val; rw [e1]; omega

theorem hblk5 (c : Dev nD) (t : Fin cfg0.N) : (iblk m c 5 t : Vec Ideal S8192x32 .bf16) = V m c main_v9 := by
  obtain ⟨-, -, -, -, -, -, ⟨e0, e1⟩, -⟩ := idx_facts t
  funext y
  show V m c main_v9 (((cfg0.win 5).blk t).view.emb y) = V m c main_v9 y
  refine congrArg (V m c main_v9) ?_
  funext a
  apply Fin.ext
  match a with
  | ⟨0, _⟩ => show win0_5.index t (0 : Fin 2) * 8192 + 1 * (y 0).val = (y 0).val; rw [e0]; omega
  | ⟨1, _⟩ => show win0_5.index t (1 : Fin 2) * 32 + 1 * (y 1).val = (y 1).val; rw [e1]; omega

theorem hblk6 (c : Dev nD) (t : Fin cfg0.N) : (iblk m c 6 t : Vec Ideal S8192x32 .bf16) = V m c main_v14 := by
  obtain ⟨-, -, -, -, -, -, -, ⟨e0, e1⟩, -⟩ := idx_facts t
  funext y
  show V m c main_v14 (((cfg0.win 6).blk t).view.emb y) = V m c main_v14 y
  refine congrArg (V m c main_v14) ?_
  funext a
  apply Fin.ext
  match a with
  | ⟨0, _⟩ => show win0_6.index t (0 : Fin 2) * 8192 + 1 * (y 0).val = (y 0).val; rw [e0]; omega
  | ⟨1, _⟩ => show win0_6.index t (1 : Fin 2) * 32 + 1 * (y 1).val = (y 1).val; rw [e1]; omega

theorem hblk7 (c : Dev nD) (t : Fin cfg0.N) : (iblk m c 7 t : Vec Ideal S8192x32 .bf16) = V m c main_v19 := by
  obtain ⟨-, -, -, -, -, -, -, -, ⟨e0, e1⟩, -⟩ := idx_facts t
  funext y
  show V m c main_v19 (((cfg0.win 7).blk t).view.emb y) = V m c main_v19 y
  refine congrArg (V m c main_v19) ?_
  funext a
  apply Fin.ext
  match a with
  | ⟨0, _⟩ => show win0_7.index t (0 : Fin 2) * 8192 + 1 * (y 0).val = (y 0).val; rw [e0]; omega
  | ⟨1, _⟩ => show win0_7.index t (1 : Fin 2) * 32 + 1 * (y 1).val = (y 1).val; rw [e1]; omega

end Cert.KernelIdeal.Acc

end
-- ==== Proof.AccInv.lean ====
/-
  What the output block holds after each grid point.

  After point n = 16 j + k the block holds, at entry (p, q), the running value of entry (1024 j + p, q) of
  G₀h₀ + G₁h₁ + G₂h₂ + G₃h₃ after contraction blocks 0 … k — and, once k = 15 has run, its positive part. The proof
  is an induction along the grid: a point with k = 0 starts from the zero fill, any other point from what the point
  before left in the same block (same j, k − 1, which was not a last step, so no positive part was taken yet).
-/
import proofs.«114556_j19696720019799_2_alg».proof.Proof.AccIdeal
import proofs.«114556_j19696720019799_2_alg».proof.Proof.AccBlocks

noncomputable section

open scoped BigOperators
open Idealize.ShloMosaic Idealize.ShloMosaic.TcCoe Idealize.SL.Sem Idealize.ShloMosaic.ValueIdx
open Cert.Merge

namespace Cert.KernelIdeal.Acc

open Cert.KernelIdeal Cert.KernelIdeal.Gen

/-- One step at entry (p, q), when the four tiles are the (j, k) tiles of operators G₀ … G₃, the feature arrays are
    H₀ … H₃ and the grid coordinate is k: the old entry plus block k's addend to entry (1024 j + p, q). -/
theorem step_entry (i : grid0.Coords) (j k : ℕ) (hi : (i 1).val = k)
    (x0 x1 x2 x3 : Vec Ideal S1024x512 .f32) (x4 x5 x6 x7 : Vec Ideal S8192x32 .bf16)
    (G0 G1 G2 G3 : S8192x8192.Idx → EReal) (H0 H1 H2 H3 : S8192x32.Idx → EReal)
    (e0 : ∀ (p : Fin 1024) (l : Fin 512), x0 (ix2 p l) = at2 G0 (1024 * j + p.val) (512 * k + l.val))
    (e1 : ∀ (p : Fin 1024) (l : Fin 512), x1 (ix2 p l) = at2 G1 (1024 * j + p.val) (512 * k + l.val))
    (e2 : ∀ (p : Fin 1024) (l : Fin 512), x2 (ix2 p l) = at2 G2 (1024 * j + p.val) (512 * k + l.val))
    (e3 : ∀ (p : Fin 1024) (l : Fin 512), x3 (ix2 p l) = at2 G3 (1024 * j + p.val) (512 * k + l.val))
    (f0 : x4 = H0) (f1 : x5 = H1) (f2 : x6 = H2) (f3 : x7 = H3)
    (acc : Vec Ideal S1024x32 .f32) (p : Fin 1024) (q : Fin 32) :
    step (F := Ideal) i x0 x1 x2 x3 x4 x5 x6 x7 acc (ix2 p q)
      = acc (ix2 p q) + addend (at2 G0) (at2 G1) (at2 G2) (at2 G3) (at2 H0) (at2 H1) (at2 H2) (at2 H3)
          (1024 * j + p.val) q.val k := by
  subst f0 f1 f2 f3
  rw [step_apply, update_eq]
  unfold addend tile
  simp only [Finset.sum_range, rows_apply, e0, e1, e2, e3, hi]

variable (m : (ℓ : Loc nD τ sig) → Buf (Elt Ideal) ℓ)

/-- What contraction block s adds to entry (r, q) of the four-branch sum, over the arrays the region starts from. -/
def block (c : Dev nD) (r q s : ℕ) : EReal :=
  addend (at2 (a := 8192) (b := 8192) (V m c main_arg4)) (at2 (a := 8192) (b := 8192) (V m c main_arg5))
    (at2 (a := 8192) (b := 8192) (V m c main_arg6)) (at2 (a := 8192) (b := 8192) (V m c main_arg7))
    (at2 (a := 8192) (b := 32) (V m c main_v4)) (at2 (a := 8192) (b := 32) (V m c main_v9))
    (at2 (a := 8192) (b := 32) (V m c main_v14)) (at2 (a := 8192) (b := 32) (V m c main_v19)) r q s

/-- The running value of that entry after contraction blocks 0 … k. -/
def running (c : Dev nD) (r q k : ℕ) : EReal :=
  partialSum (at2 (a := 8192) (b := 8192) (V m c main_arg4)) (at2 (a := 8192) (b := 8192) (V m c main_arg5))
    (at2 (a := 8192) (b := 8192) (V m c main_arg6)) (at2 (a := 8192) (b := 8192) (V m c main_arg7))
    (at2 (a := 8192) (b := 32) (V m c main_v4)) (at2 (a := 8192) (b := 32) (V m c main_v9))
    (at2 (a := 8192) (b := 32) (V m c main_v14)) (at2 (a := 8192) (b := 32) (V m c main_v19)) r q k

theorem running_zero (c : Dev nD) (r q : ℕ) : running m c r q 0 = block m c r q 0 := partialSum_zero ..

theorem running_succ (c : Dev nD) (r q k : ℕ) : running m c r q (k + 1) = running m c r q k + block m c r q (k + 1) :=
  partialSum_succ ..

/-- What the output block holds after point n = 16 j + k. -/
def accOf (c : Dev nD) (n : ℕ) : Vec Ideal S1024x32 .f32 := fun y =>
  if n % 16 = 15 then max (running m c (1024 * (n / 16) + (y 0).val) (y 1).val 15) (Ideal.ofBits .f32 0x00000000#32)
  else running m c (1024 * (n / 16) + (y 0).val) (y 1).val (n % 16)

/-- A step at point t over any previous contents, at entry (p, q): the old entry plus block (t % 16)'s addend to
    entry (1024 (t / 16) + p, q). -/
theorem step_at (c : Dev nD) (t : Fin cfg0.N) (acc : Vec Ideal S1024x32 .f32) (p : Fin 1024) (q : Fin 32) :
    step (F := Ideal) (grid0.coords t) (iblk m c 0 t) (iblk m c 1 t) (iblk m c 2 t) (iblk m c 3 t)
        (iblk m c 4 t) (iblk m c 5 t) (iblk m c 6 t) (iblk m c 7 t) acc (ix2 p q)
      = acc (ix2 p q) + block m c (1024 * (t.val / 16) + p.val) q.val (t.val % 16) :=
  step_entry (grid0.coords t) (t.val / 16) (t.val % 16) (idx_facts t).1
    (iblk m c 0 t) (iblk m c 1 t) (iblk m c 2 t) (iblk m c 3 t) (iblk m c 4 t) (iblk m c 5 t) (iblk m c 6 t) (iblk m c 7 t)
    (V m c main_arg4) (V m c main_arg5) (V m c main_arg6) (V m c main_arg7)
    (V m c main_v4) (V m c main_v9) (V m c main_v14) (V m c main_v19)
    (gblk0 m c t) (gblk1 m c t) (gblk2 m c t) (gblk3 m c t) (hblk4 m c t) (hblk5 m c t) (hblk6 m c t) (hblk7 m c t) acc p q

/-- The contents of the output block after each point, by induction along the grid. -/
theorem outsAt_eq (c : Dev nD) : ∀ (n : ℕ) (h : n < cfg0.N), outsAt0 m c n h = accOf m c n
  | 0, h => by
    have h0 : (⟨0, h⟩ : Fin cfg0.N).val % 16 = 0 := rfl
    have h1 : ¬(⟨0, h⟩ : Fin cfg0.N).val % 16 = 15 := by dsimp only; omega
    rw [outsAt0_A m c ⟨0, h⟩ h0 h1, out_A]
    funext y
    obtain ⟨p, q, rfl⟩ : ∃ (p : Fin 1024) (q : Fin 32), y = ix2 p q := ⟨y 0, y 1, eq_ix2 y⟩
    rw [step_at m c ⟨0, h⟩, pay4_apply, Ideal.ofBits_zero_f32, zero_add]
    unfold accOf
    rw [if_neg (by decide)]
    exact (running_zero m c _ _).symm
  | n + 1, h => by
    have hN : n + 1 < 128 := lt_of_lt_of_eq h N_0
    have ih := outsAt_eq c n (Nat.lt_of_succ_lt h)
    by_cases h0 : (n + 1) % 16 = 0
    · have h1 : ¬(n + 1) % 16 = 15 := by omega
      rw [outsAt0_A m c ⟨n + 1, h⟩ h0 h1, out_A]
      funext y
      obtain ⟨p, q, rfl⟩ : ∃ (p : Fin 1024) (q : Fin 32), y = ix2 p q := ⟨y 0, y 1, eq_ix2 y⟩
      rw [step_at m c ⟨n + 1, h⟩, pay4_apply, Ideal.ofBits_zero_f32, zero_add]
      unfold accOf
      rw [if_neg h1]
      show block m c (1024 * ((n + 1) / 16) + p.val) q.val ((n + 1) % 16)
        = running m c (1024 * ((n + 1) / 16) + p.val) q.val ((n + 1) % 16)
      rw [h0, running_zero]
    · have e1 : (n + 1) / 16 = n / 16 := by omega
      by_cases h1 : (n + 1) % 16 = 15
      · have e2 : n % 16 = 14 := by omega
        rw [outsAt0_C m c ⟨n + 1, h⟩ h0 h1, out_C]
        funext y
        obtain ⟨p, q, rfl⟩ : ∃ (p : Fin 1024) (q : Fin 32), y = ix2 p q := ⟨y 0, y 1, eq_ix2 y⟩
        rw [pay3_apply, step_at m c ⟨n + 1, h⟩]
        show max (outsAt0 m c n _ (ix2 p q) + block m c (1024 * ((n + 1) / 16) + p.val) q.val ((n + 1) % 16)) _ = _
        rw [ih]
        unfold accOf
        rw [if_pos h1, if_neg (by omega)]
        show max (running m c (1024 * (n / 16) + p.val) q.val (n % 16)
          + block m c (1024 * ((n + 1) / 16) + p.val) q.val ((n + 1) % 16)) _
          = max (running m c (1024 * ((n + 1) / 16) + p.val) q.val 15) _
        rw [e1, e2, h1, ← running_succ]
      · have e2 : (n + 1) % 16 = n % 16 + 1 := by omega
        rw [outsAt0_B m c ⟨n + 1, h⟩ h0 h1, out_B]
        funext y
        obtain ⟨p, q, rfl⟩ : ∃ (p : Fin 1024) (q : Fin 32), y = ix2 p q := ⟨y 0, y 1, eq_ix2 y⟩
        rw [step_at m c ⟨n + 1, h⟩]
        show outsAt0 m c n _ (ix2 p q) + block m c (1024 * ((n + 1) / 16) + p.val) q.val ((n + 1) % 16) = _
        rw [ih]
        unfold accOf
        rw [if_neg h1, if_neg (by omega)]
        show running m c (1024 * (n / 16) + p.val) q.val (n % 16)
          + block m c (1024 * ((n + 1) / 16) + p.val) q.val ((n + 1) % 16)
          = running m c (1024 * ((n + 1) / 16) + p.val) q.val ((n + 1) % 16)
        rw [e1, e2, ← running_succ]

end Cert.KernelIdeal.Acc

end
-- ==== Proof.KernelValue.lean ====
/-
  The kernel's result array.

  The output window writes its block back once per row block j, after the last contraction step (k = 15), and those
  eight write-backs tile the 8192 rows. What is written is the positive part of the completed running sums, which
  are the four whole products added in the reference's order. So the result array is the merged feature map of the
  operators and feature arrays the region starts from.
-/
import proofs.«114556_j19696720019799_2_alg».proof.Proof.AccInv
import proofs.«114556_j19696720019799_2_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)
open Cert.Merge

namespace Cert.KernelIdeal.Acc

open Cert.KernelIdeal Cert.KernelIdeal.Gen

variable (m : (ℓ : Loc nD τ sig) → Buf (Elt Ideal) ℓ) (ρ : Dev nD → PrngReg)

/-- The merged feature map over the arrays the region starts from. -/
def regionResult (c : Dev nD) : Buf (Elt Ideal) ((c : Thread nD τ).loc main_v20) :=
  merged (V m c main_arg4) (V m c main_arg5) (V m c main_arg6) (V m c main_arg7)
    (V m c main_v4) (V m c main_v9) (V m c main_v14) (V m c main_v19) (Ideal.ofBits .f32 0x00000000#32)

/-- What a write-back point (k = 15) writes is its row block of the merged feature map. -/
theorem flushed_eq (c : Dev nD) (t : Fin cfg0.N) (hf : (cfg0.win 8).flush t = true) :
    (dats m 0 c).flushed 8 t = ((cfg0.win 8).blk t).view.read (Elt Ideal) (regionResult m c) := by
  have h15 : t.val % 16 = 15 := (flush0_8 t).mp hf
  have hN : t.val < 128 := lt_of_lt_of_eq t.isLt N_0
  obtain ⟨-, -, -, -, -, -, -, -, -, ⟨e0, e1⟩⟩ := idx_facts t
  rw [Value.flushed8, outsAt_eq]
  funext y
  obtain ⟨p, q, rfl⟩ : ∃ (p : Fin 1024) (q : Fin 32), y = ix2 p q := ⟨y 0, y 1, eq_ix2 y⟩
  have hp := p.isLt
  show accOf m c t.val (ix2 p q) = regionResult m c (((cfg0.win 8).blk t).view.emb (ix2 p q))
  have r0 : ((((cfg0.win 8).blk t).view.emb (ix2 p q)) 0).val = 1024 * (t.val / 16) + p.val := by
    show win0_8.index t (0 : Fin 2) * 1024 + 1 * p.val = _; rw [e0]; omega
  have r1 : ((((cfg0.win 8).blk t).view.emb (ix2 p q)) 1).val = q.val := by
    show win0_8.index t (1 : Fin 2) * 32 + 1 * q.val = _; rw [e1]; omega
  unfold accOf regionResult merged
  rw [if_pos h15]
  show max (running m c (1024 * (t.val / 16) + p.val) q.val 15) _ = _
  rw [r0, r1]
  unfold running
  rw [partialSum_last]

/-- An entry of the result is in point t's block iff its row lies in that block's 1024 rows. -/
theorem mem_blk (t : Fin cfg0.N) (i : S8192x32.Idx) :
    i ∈ ((cfg0.win 8).blk t).view.set ↔ ∀ a : Fin 2, win0_8.index t a * S1024x32.size a ≤ (i a).val
      ∧ (i a).val < win0_8.index t a * S1024x32.size a + S1024x32.size a := by
  show i ∈ ((View.whole main_v20).slice (win0_8.rect t)).set ↔ _
  rw [View.set_slice_whole, Rect.mem_set_unit]
  exact Iff.rfl

/-- Every entry is written back: row r by the last step of row block r / 1024. -/
theorem cover (i : S8192x32.Idx) : ∃ t : Fin cfg0.N, (cfg0.win 8).flush t = true ∧ i ∈ ((cfg0.win 8).blk t).view.set := by
  have hi0 : (i 0).val < 8192 := (i 0).isLt
  have hi1 : (i 1).val < 32 := (i 1).isLt
  have hN : cfg0.N = 128 := N_0
  let t : Fin cfg0.N := ⟨16 * ((i 0).val / 1024) + 15, by rw [hN]; omega⟩
  have hv : t.val = 16 * ((i 0).val / 1024) + 15 := rfl
  obtain ⟨-, -, -, -, -, -, -, -, -, ⟨e0, e1⟩⟩ := idx_facts t
  refine ⟨t, (flush0_8 t).mpr (by rw [hv]; omega), ?_⟩
  rw [mem_blk]
  intro a
  match a with
  | ⟨0, _⟩ =>
    show win0_8.index t (0 : Fin 2) * 1024 ≤ (i 0).val ∧ (i 0).val < win0_8.index t (0 : Fin 2) * 1024 + 1024
    rw [e0, hv]; omega
  | ⟨1, _⟩ =>
    show win0_8.index t (1 : Fin 2) * 32 ≤ (i 1).val ∧ (i 1).val < win0_8.index t (1 : Fin 2) * 32 + 32
    rw [e1]; omega

/-- The result array after the run. -/
theorem final (c : Dev nD) : (dats m 0 c).arrAt 8 cfg0.N = regionResult m c :=
  (dats m 0 c).arrAt_eq_of_cover 8 (regionResult m c) (flushed_eq m c) cover

end Cert.KernelIdeal.Acc

end
-- ==== Proof.Features.lean ====
/-
  The feature arrays the region starts from.

  Before the region the host computes, for each branch, the linear layer x W + b (a product of an 8192 × 32 by a
  32 × 32 array, plus the bias row repeated down the rows) and narrows it to bf16 — which on exact values changes
  nothing. These four arrays are what the feature windows stage.
-/
import proofs.«114556_j19696720019799_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Acc

open Cert.KernelIdeal Cert.KernelIdeal.Gen

variable {F : FTy → Type} [FloatOps F]

/-- One branch's linear layer as the host prefix computes it: x W, plus the bias repeated down the rows, narrowed. -/
def feat (X : (⟨S8192x32, .f32⟩ : BufTy).Contents (Elt F)) (W : (⟨S32x32, .f32⟩ : BufTy).Contents (Elt F))
    (b : (⟨S32, .f32⟩ : BufTy).Contents (Elt F)) : (⟨S8192x32, .bf16⟩ : BufTy).Contents (Elt F) :=
  truncf .bf16 (addf (Host.dotGeneral dot_S8192x32_S32x32_S8192x32_1_0_0_1_n_n none X W)
    (broadcastInDim S8192x32 ![0, 1] bcast_S1x32_S8192x32_0_1 (broadcastInDim S1x32 ![1] bcast_S32_S1x32_1 b))) bitsLt_bf16_f32

variable (m : (ℓ : Loc nD τ sig) → Buf (Elt F) ℓ)

theorem V_v4 (c : Dev nD) : (V m c main_v4 : (⟨S8192x32, .bf16⟩ : BufTy).Contents (Elt F))
    = feat (m ((c : Thread nD τ).loc main_arg0)) (m ((c : Thread nD τ).loc main_arg8)) (m ((c : Thread nD τ).loc main_arg12)) := by
  dsimp only [Gen.V, Gen.hostOps0]; after_results; rfl

theorem V_v9 (c : Dev nD) : (V m c main_v9 : (⟨S8192x32, .bf16⟩ : BufTy).Contents (Elt F))
    = feat (m ((c : Thread nD τ).loc main_arg1)) (m ((c : Thread nD τ).loc main_arg9)) (m ((c : Thread nD τ).loc main_arg13)) := by
  dsimp only [Gen.V, Gen.hostOps0]; after_results; rfl

theorem V_v14 (c : Dev nD) : (V m c main_v14 : (⟨S8192x32, .bf16⟩ : BufTy).Contents (Elt F))
    = feat (m ((c : Thread nD τ).loc main_arg1)) (m ((c : Thread nD τ).loc main_arg10)) (m ((c : Thread nD τ).loc main_arg14)) := by
  dsimp only [Gen.V, Gen.hostOps0]; after_results; rfl

theorem V_v19 (c : Dev nD) : (V m c main_v19 : (⟨S8192x32, .bf16⟩ : BufTy).Contents (Elt F))
    = feat (m ((c : Thread nD τ).loc main_arg3)) (m ((c : Thread nD τ).loc main_arg11)) (m ((c : Thread nD τ).loc main_arg15)) := by
  dsimp only [Gen.V, Gen.hostOps0]; after_results; rfl

end Cert.KernelIdeal.Acc

end
-- ==== Proof.KernelRun.lean ====
/-
  The kernel's run, read as one function of the argument arrays.

  The operators reach the region unchanged and the feature arrays are the host prefix's linear layers of the
  arguments, so the result array is the merged feature map of the arguments' operators and those layers.
-/
import proofs.«114556_j19696720019799_2_alg».proof.Proof.KernelValue
import proofs.«114556_j19696720019799_2_alg».proof.Proof.Features

noncomputable section

open Idealize.ShloMosaic Idealize.ShloMosaic.TcCoe Idealize.SL.Sem
open Cert.Merge

namespace Cert.KernelIdeal.Acc

open Cert.KernelIdeal Cert.KernelIdeal.Gen

variable (m : (ℓ : Loc nD τ sig) → Buf (Elt Ideal) ℓ) (ρ : Dev nD → PrngReg)

/-- The merged feature map of the argument arrays: operators arguments 4 … 7; features of arguments (0, 8, 12),
    (1, 9, 13), (1, 10, 14) and (3, 11, 15) — the third branch reads the second branch's input, as the source says. -/
def result (c : Dev nD) : Buf (Elt Ideal) ((c : Thread nD τ).loc main_v20) :=
  merged (m ((c : Thread nD τ).loc main_arg4)) (m ((c : Thread nD τ).loc main_arg5))
    (m ((c : Thread nD τ).loc main_arg6)) (m ((c : Thread nD τ).loc main_arg7))
    (feat (m ((c : Thread nD τ).loc main_arg0)) (m ((c : Thread nD τ).loc main_arg8)) (m ((c : Thread nD τ).loc main_arg12)))
    (feat (m ((c : Thread nD τ).loc main_arg1)) (m ((c : Thread nD τ).loc main_arg9)) (m ((c : Thread nD τ).loc main_arg13)))
    (feat (m ((c : Thread nD τ).loc main_arg1)) (m ((c : Thread nD τ).loc main_arg10)) (m ((c : Thread nD τ).loc main_arg14)))
    (feat (m ((c : Thread nD τ).loc main_arg3)) (m ((c : Thread nD τ).loc main_arg11)) (m ((c : Thread nD τ).loc main_arg15)))
    (Ideal.ofBits .f32 0x00000000#32)

theorem regionResult_eq (c : Dev nD) : regionResult m c = result m c := by
  unfold regionResult result
  rw [V_main_arg4 m c, V_main_arg5 m c, V_main_arg6 m c, V_main_arg7 m c, V_v4 m c, V_v9 m c, V_v14 m c, V_v19 m c]

/-- Every fair execution of the kernel program ends with the result array at the merged feature map of the
    arguments, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans ((final m c).trans (regionResult_eq m c)), (h c).2⟩)
    (Cert.KernelIdeal.Value.run_blocks (F := Ideal) m ρ)

end Cert.KernelIdeal.Acc

end
-- ==== Proof.RefValue.lean ====
/-
  The reference's result, entry by entry.

  The reference forms each branch's features x W + b, multiplies them by the branch's operator over the whole
  contraction axis, adds the four products left to right, and takes the maximum with a broadcast zero. Read at an
  entry that is the merged feature map of the operators and the four feature arrays.
-/
import proofs.«114556_j19696720019799_2_alg».proof.Proof.Gen.ReferenceIdeal.Read
import proofs.«114556_j19696720019799_2_alg».proof.Proof.MergeSpec

noncomputable section

open scoped BigOperators
open Idealize.ShloMosaic Idealize.ShloMosaic.TcCoe Idealize.SL.Sem Idealize.ShloMosaic.ValueIdx
open Cert.Merge

namespace Cert.ReferenceIdeal.RefValue

open Cert.ReferenceIdeal Cert.ReferenceIdeal.Gen Cert.ReferenceIdeal.Read

/-- A host product of an operator with a feature array at entry i: the whole-axis sum of products, with the arrays
    read at natural-number coordinates. -/
theorem dot_entry (G : S8192x8192.Idx → EReal) (H : S8192x32.Idx → EReal) (i : S8192x32.Idx) :
    ∑ k : Fin 8192, G (lidx_main_v4 i k) * H (ridx_main_v4 i k) = gemm (at2 G) (at2 H) (i 0).val (i 1).val := by
  unfold gemm
  rw [Finset.sum_range]
  refine Finset.sum_congr rfl fun k _ => ?_
  rw [at2_ix2 G (i 0) k, at2_ix2 H k (i 1)]
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

/-- The reference's result is the merged feature map of the operators and the four branches' features. -/
theorem result_eq (x0 x1 x3 : (⟨S8192x32, .f32⟩ : BufTy).Contents (Elt Ideal)) (x4 x5 x6 x7 : (⟨S8192x8192, .f32⟩ : BufTy).Contents (Elt Ideal))
    (x8 x9 x10 x11 : (⟨S32x32, .f32⟩ : BufTy).Contents (Elt Ideal)) (x12 x13 x14 x15 : (⟨S32, .f32⟩ : BufTy).Contents (Elt Ideal)) :
    val_main_v23 (F := Ideal) x0 x1 x3 x4 x5 x6 x7 x8 x9 x10 x11 x12 x13 x14 x15
      = merged x4 x5 x6 x7 (val_main_v3 (F := Ideal) x0 x8 x12) (val_main_v8 (F := Ideal) x1 x9 x13)
          (val_main_v14 (F := Ideal) x1 x10 x14) (val_main_v20 (F := Ideal) x3 x11 x15) (Ideal.ofBits .f32 0x00000000#32) := by
  funext i
  rw [val_main_v23_apply, val_main_v22_apply, val_main_v16_apply, val_main_v10_apply, val_main_v4_apply, val_main_v9_apply,
    val_main_v15_apply, val_main_v21_apply, val_main_call0_v0_apply, val_main_call0_cst_apply]
  unfold merged
  rw [← dot_entry x4, ← dot_entry x5, ← dot_entry x6, ← dot_entry x7]
  rfl

end Cert.ReferenceIdeal.RefValue

end
-- ==== Proof.lean ====
/-
  A four-branch merge layer, relu (G₀(x₀W₀ + b₀) + G₁(x₁W₁ + b₁) + G₂(x₁W₂ + b₂) + G₃(x₃W₃ + b₃)), computed by a
  tiled kernel and by plain array code: the two agree on the extended reals.

  The kernel forms the four feature arrays hₐ = xₐWₐ + bₐ on the host, then walks a grid of 8 row blocks by 16
  contraction blocks; at each point it adds the four 1024 × 512 by 512 × 32 partial products, one after the other,
  into the 1024 × 32 output block (zeroed at the first contraction block) and takes the positive part after the last
  one. The reference multiplies whole arrays, adds the four products left to right and takes the positive part.
  Entry by entry both are max (∑ₖ G₀(r,k) h₀(k,q) + ∑ₖ G₁(r,k) h₁(k,q) + ∑ₖ G₂(r,k) h₂(k,q) + ∑ₖ G₃(r,k) h₃(k,q)) 0
  up to the order and grouping of the additions, and addition of extended reals is associative and commutative
  (infinities included), so the finiteness of the inputs is never used. The feature arrays are the same host
  operations in both programs; the kernel's narrowing of them, and of the operator tiles, to bf16 is the identity on
  exact values.

  Modules: MergeSpec (the arithmetic), AccBody (one grid step from the body's stores and loads), AccIdeal (that step
  entry by entry), AccBlocks (what the windows hold), AccInv (the output block after every point, by induction along
  the grid), KernelValue (the write-backs tile the result), Features and KernelRun (the result as a function of the
  arguments), RefValue (the reference entry by entry); the frames are the generated ones, and the reference's frame
  is its generated run with the result dropped.
-/
import proofs.«114556_j19696720019799_2_alg».proof.Defs
import proofs.«114556_j19696720019799_2_alg».proof.Proof.Gen.Kernel
import proofs.«114556_j19696720019799_2_alg».proof.Proof.Gen.Kernel.Skeleton
import proofs.«114556_j19696720019799_2_alg».proof.Proof.Gen.Kernel.Launch
import proofs.«114556_j19696720019799_2_alg».proof.Proof.Gen.Kernel.Points
import proofs.«114556_j19696720019799_2_alg».proof.Proof.Gen.Kernel.Frame
import proofs.«114556_j19696720019799_2_alg».proof.Proof.Gen.KernelIdeal
import proofs.«114556_j19696720019799_2_alg».proof.Proof.Gen.KernelIdeal.Skeleton
import proofs.«114556_j19696720019799_2_alg».proof.Proof.Gen.KernelIdeal.Launch
import proofs.«114556_j19696720019799_2_alg».proof.Proof.Gen.KernelIdeal.Points
import proofs.«114556_j19696720019799_2_alg».proof.Proof.Gen.KernelIdeal.Frame
import proofs.«114556_j19696720019799_2_alg».proof.Proof.Gen.ReferenceIdeal
import proofs.«114556_j19696720019799_2_alg».proof.Proof.Gen.Pre_finite_inputs
import proofs.«114556_j19696720019799_2_alg».proof.Proof.Gen.KernelIdeal.Value
import proofs.«114556_j19696720019799_2_alg».proof.Proof.Gen.ReferenceIdeal.Run
import proofs.«114556_j19696720019799_2_alg».proof.Proof.Gen.ReferenceIdeal.Read
import proofs.«114556_j19696720019799_2_alg».proof.Proof.KernelRun
import proofs.«114556_j19696720019799_2_alg».proof.Proof.RefValue
import Idealize.ShloMosaic.Adequacy
import Idealize.ShloMosaic.Init

noncomputable section

namespace Cert.Proof

open Idealize.ShloMosaic Idealize.ShloMosaic.TcCoe Idealize.SL.Sem

/-- A branch's features are the same host operations in the kernel's prefix and in the reference; the kernel's
    narrowing to bf16 is the identity on exact values. -/
theorem feat_eq_v3 (X : Cert.KernelIdeal.S8192x32.Idx → EReal) (W : Cert.KernelIdeal.S32x32.Idx → EReal)
    (b : Cert.KernelIdeal.S32.Idx → EReal) :
    Cert.KernelIdeal.Acc.feat (F := Ideal) X W b = Cert.ReferenceIdeal.Read.val_main_v3 (F := Ideal) X W b := rfl

theorem feat_eq_v8 (X : Cert.KernelIdeal.S8192x32.Idx → EReal) (W : Cert.KernelIdeal.S32x32.Idx → EReal)
    (b : Cert.KernelIdeal.S32.Idx → EReal) :
    Cert.KernelIdeal.Acc.feat (F := Ideal) X W b = Cert.ReferenceIdeal.Read.val_main_v8 (F := Ideal) X W b := rfl

theorem feat_eq_v14 (X : Cert.KernelIdeal.S8192x32.Idx → EReal) (W : Cert.KernelIdeal.S32x32.Idx → EReal)
    (b : Cert.KernelIdeal.S32.Idx → EReal) :
    Cert.KernelIdeal.Acc.feat (F := Ideal) X W b = Cert.ReferenceIdeal.Read.val_main_v14 (F := Ideal) X W b := rfl

theorem feat_eq_v20 (X : Cert.KernelIdeal.S8192x32.Idx → EReal) (W : Cert.KernelIdeal.S32x32.Idx → EReal)
    (b : Cert.KernelIdeal.S32.Idx → EReal) :
    Cert.KernelIdeal.Acc.feat (F := Ideal) X W b = Cert.ReferenceIdeal.Read.val_main_v20 (F := Ideal) X W b := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- Both programs end with the merged feature map of arguments that agree. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v23_eq, Cert.ReferenceIdeal.RefValue.result_eq,
    a0, a1, a3, a4, a5, a6, a7, a8, a9, a10, a11, a12, a13, a14, a15,
    ← feat_eq_v3, ← feat_eq_v8, ← feat_eq_v14, ← feat_eq_v20]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
